-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048x4 : Shape := ⟨2, ![2048, 4]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x8192x2048 .f32) (main_arg1 : FVec F S2048x4 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x8192x2048 : Shape := ⟨3, ![4, 8192, 2048]⟩
abbrev S2048x4 : Shape := ⟨2, ![2048, 4]⟩
abbrev S4x2048 : Shape := ⟨2, ![4, 2048]⟩
abbrev S1x512x2048 : Shape := ⟨3, ![1, 512, 2048]⟩
abbrev S1x3x2048 : Shape := ⟨3, ![1, 3, 2048]⟩
abbrev S1x515x2048 : Shape := ⟨3, ![1, 515, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x4, .f32⟩
  | .hbm, ⟨2, _⟩ => ⟨S4x2048, .f32⟩
  | .hbm, ⟨3, _⟩ => ⟨S4x8192x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x3x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x4_S4x2048_1_0 : S2048x4.Transposes [1, 0] S4x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S1x3x2048 : S1x3x2048.ShapeCasts S1x3x2048
  inb_S1x512x2048_S1x512x2048_0_0_0 : ∀ a, (![0, 0, 0] : Fin 3 → Nat) a + S1x512x2048.size a ≤ S1x512x2048.size a
  h_S1x512x2048 : 0 < S1x512x2048.numel
  concatenates_S1x3x2048_S1x512x2048_S1x515x2048_d1 : Shape.Concatenates [S1x3x2048, S1x512x2048] S1x515x2048 1
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x1x2048 : S2048.ShapeCasts S1x1x2048
  slices_S1x515x2048_o0_0_0_S1x512x2048 : S1x515x2048.Slices ![0, 0, 0] S1x512x2048
  broadcasts_S1x1x2048_S1x512x2048 : S1x1x2048.Broadcasts S1x512x2048
  inb_S4x2048_S1x2048_1_0 : ∀ a, (![1, 0] : Fin 2 → Nat) a + S1x2048.size a ≤ S4x2048.size a
  slices_S1x515x2048_o0_1_0_S1x512x2048 : S1x515x2048.Slices ![0, 1, 0] S1x512x2048
  inb_S4x2048_S1x2048_2_0 : ∀ a, (![2, 0] : Fin 2 → Nat) a + S1x2048.size a ≤ S4x2048.size a
  slices_S1x515x2048_o0_2_0_S1x512x2048 : S1x515x2048.Slices ![0, 2, 0] S1x512x2048
  inb_S4x2048_S1x2048_3_0 : ∀ a, (![3, 0] : Fin 2 → Nat) a + S1x2048.size a ≤ S4x2048.size a
  slices_S1x515x2048_o0_3_0_S1x512x2048 : S1x515x2048.Slices ![0, 3, 0] S1x512x2048
  slices_S1x512x2048_o0_509_0_S1x3x2048 : S1x512x2048.Slices ![0, 509, 0] S1x3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x8192x2048.size a
  hwx0_0 : ∀ i : grid0.Coords, EltTy.bits .f32 = 32 ∨ (Rect.block (s := S4x8192x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x8192x2048.size a
  hwx0_2 : ∀ i : grid0.Coords, EltTy.bits .f32 = 32 ∨ (Rect.block (s := S4x8192x2048) S1x512x2048.size (cc0_transform_2 i) (hinb0_2 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048x4 : Shape := ⟨2, ![2048, 4]⟩
abbrev S_ : Shape := ⟨0, ![]⟩
abbrev S4x8195x2048 : Shape := ⟨3, ![4, 8195, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x8195x2048, .f32⟩
  | .hbm, ⟨5, _⟩ => ⟨S4x8192x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S2048x1, .f32⟩
  | .hbm, ⟨13, _⟩ => ⟨S2048, .f32⟩
  | .hbm, ⟨14, _⟩ => ⟨S1x1x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S2048x1, .f32⟩
  | .hbm, ⟨20, _⟩ => ⟨S2048, .f32⟩
  | .hbm, ⟨21, _⟩ => ⟨S1x1x2048, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S2048x1, .f32⟩
  | .hbm, ⟨27, _⟩ => ⟨S2048, .f32⟩
  | .hbm, ⟨28, _⟩ => ⟨S1x1x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S_, .f32⟩
  | .hbm, ⟨35, _⟩ => ⟨S4x8192x2048, .f32⟩
  | .hbm, ⟨36, _⟩ => ⟨S4x8192x2048, .f32⟩
  | .hbm, ⟨37, _⟩ => ⟨S_, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  pads_S4x8192x2048_S4x8195x2048_000_300_000 : S4x8192x2048.Pads (![0, 3, 0] : Fin 3 → Nat) ![0, 0, 0] ![0, 0, 0] S4x8195x2048
  h_S_ : 0 < S_.numel
  slices_S4x8195x2048_S4x8192x2048_0_0_0 : S4x8195x2048.Slices ![0, 0, 0] S4x8192x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  slices_S4x8195x2048_S4x8192x2048_0_1_0 : S4x8195x2048.Slices ![0, 1, 0] S4x8192x2048
  slices_S2048x4_S2048x1_0_1 : S2048x4.Slices ![0, 1] S2048x1
  slices_S4x8195x2048_S4x8192x2048_0_2_0 : S4x8195x2048.Slices ![0, 2, 0] S4x8192x2048
  slices_S2048x4_S2048x1_0_2 : S2048x4.Slices ![0, 2] S2048x1
  slices_S4x8195x2048_S4x8192x2048_0_3_0 : S4x8195x2048.Slices ![0, 3, 0] S4x8192x2048
  slices_S2048x4_S2048x1_0_3 : S2048x4.Slices ![0, 3] S2048x1
  bcast_S_S4x8192x2048 : S_.BroadcastsInDim S4x8192x2048 (![] : Fin 0 → Fin S4x8192x2048.rank)

variable [Facts₀]

class Facts : Prop extends Facts₀ where

variable [Facts]
-- ==== Proof.ConvSpec.lean ====
/-
  The causal depthwise convolution with four taps, followed by SiLU, as ONE function of the two argument arrays.

  For a sequence array `x[b, t, h]` (4 × 8192 × 2048) and taps `w[h, i]` (2048 × 4) the result at `(b, t, h)` is
  `silu (∑ᵢ xpad[b, t + i, h] · w[h, i])`, where `xpad` is `x` with three zero rows put in front of every sequence
  (`xpad[b, u, h] = x[b, u − 3, h]` for `u ≥ 3`, and `0` before), the four products are added first to last, and
  `silu y = y · 1 / (1 + e^(−y))` over the extended reals. Nothing here mentions a program.
-/
import Idealize.ShloMosaic.PureOps.Ideal
import Idealize.ShloMosaic.Lib.ValueIdx

noncomputable section

namespace Cert.ConvSpec

open Idealize.ShloMosaic Idealize.ShloMosaic.ValueIdx

/-- The sequence array's shape and the taps' shape. -/
abbrev SX : Shape := ⟨3, ![4, 8192, 2048]⟩
abbrev SW : Shape := ⟨2, ![2048, 4]⟩

/-- Row `u` of sequence `b` after three zero rows are put in front: zero for `u < 3`, row `u − 3` of `x` from there on
    (and zero again past the end, which no output reads). -/
def tap (x : SX.Idx → EReal) (b : Fin 4) (u : ℕ) (h : Fin 2048) : EReal :=
  if hu : 3 ≤ u ∧ u < 8195 then x (ix3 b ⟨u - 3, by omega⟩ h) else 0

/-- The four products at output row `t`, added first to last. -/
def conv (x : SX.Idx → EReal) (w : SW.Idx → EReal) (b : Fin 4) (t : ℕ) (h : Fin 2048) : EReal :=
  tap x b t h * w (ix2 h 0) + tap x b (t + 1) h * w (ix2 h 1) + tap x b (t + 2) h * w (ix2 h 2)
    + tap x b (t + 3) h * w (ix2 h 3)

/-- `silu y = y · logistic y`, the logistic function the extended reals' `1 / (1 + e^(−y))`. -/
def silu (y : EReal) : EReal := y * Ideal.logistic y

/-- The whole result array. -/
def result (x : SX.Idx → EReal) (w : SW.Idx → EReal) : SX.Idx → EReal :=
  fun j => silu (conv x w (j 0) (j 1).val (j 2))

theorem result_apply (x : SX.Idx → EReal) (w : SW.Idx → EReal) (b : Fin 4) (t : Fin 8192) (h : Fin 2048) :
    result x w (ix3 b t h) = silu (conv x w b t.val h) := rfl

/-- A padded row at or past the third is the array's row three before. -/
theorem tap_of_ge (x : SX.Idx → EReal) (b : Fin 4) (u : ℕ) (h : Fin 2048) (h3 : 3 ≤ u) (hu : u < 8195) :
    tap x b u h = x (ix3 b ⟨u - 3, by omega⟩ h) := dif_pos ⟨h3, hu⟩

/-- A padded row before the third is zero. -/
theorem tap_of_lt (x : SX.Idx → EReal) (b : Fin 4) (u : ℕ) (h : Fin 2048) (h3 : u < 3) : tap x b u h = 0 :=
  dif_neg fun hh => absurd hh.1 (by omega)

end Cert.ConvSpec

end
-- ==== Proof.ConvBody.lean ====
/-
  What the kernel's body computes, read at one entry, over the extended reals.

  The body sees a WINDOW of 515 rows: the three carried rows on top of the block's 512 rows. Output row `r` of the block is
  `silu` of the four products of window rows `r, r + 1, r + 2, r + 3` with the four tap rows, added first to last onto a
  zero. The carried rows it leaves behind are the block's last three (rows 509, 510, 511), and at the first block of a
  sequence the carried rows are reset to zero.
-/
import proofs.«143942_j31215822307431_1_alg».proof.Proof.Gen.KernelIdeal.Skeleton
import proofs.«143942_j31215822307431_1_alg».proof.Proof.ConvSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.ConvSpec

/-- Row `u` of the window: a carried row for `u < 3`, the block's row `u − 3` from there on. -/
def window (xs : Vec Ideal S1x3x2048 .f32) (x0 : Vec Ideal S1x512x2048 .f32) (u : ℕ) (h : Fin 2048) : EReal :=
  if hu : u < 3 then xs (ix3 0 ⟨u, hu⟩ h) else if hv : u - 3 < 512 then x0 (ix3 0 ⟨u - 3, hv⟩ h) else 0

theorem window_of_lt (xs : Vec Ideal S1x3x2048 .f32) (x0 : Vec Ideal S1x512x2048 .f32) (u : ℕ) (h : Fin 2048)
    (hu : u < 3) : window xs x0 u h = xs (ix3 0 ⟨u, hu⟩ h) := dif_pos hu

theorem window_of_ge (xs : Vec Ideal S1x3x2048 .f32) (x0 : Vec Ideal S1x512x2048 .f32) (u : ℕ) (h : Fin 2048)
    (hu : 3 ≤ u) (hv : u - 3 < 512) : window xs x0 u h = x0 (ix3 0 ⟨u - 3, hv⟩ h) := by
  unfold window; rw [dif_neg (by omega), dif_pos hv]

/-- The concatenation of the carried rows and the block along the row axis, at row `u`, is the window's row `u`. -/
theorem concat_apply (xs : Vec Ideal S1x3x2048 .f32) (x0 : Vec Ideal S1x512x2048 .f32) (u : Fin 515) (h : Fin 2048) :
    concatenate S1x515x2048 1 [⟨S1x3x2048, xs⟩, ⟨S1x512x2048, x0⟩] Facts₀.concatenates_S1x3x2048_S1x512x2048_S1x515x2048_d1
      (ix3 (0 : Fin 1) u h) = window xs x0 u.val h := by
  by_cases hu : u.val < 3
  · rw [window_of_lt xs x0 u.val h hu]
    exact concatenate_pair_apply_left 1 xs x0 _ (ix3 (0 : Fin 1) u h) rfl (ix3 (0 : Fin 1) ⟨u.val, hu⟩ h)
      (fun b => match b with | ⟨0, _⟩ => rfl | ⟨1, _⟩ => rfl | ⟨2, _⟩ => rfl)
  · have hv : u.val - 3 < 512 := by have := u.isLt; omega
    rw [window_of_ge xs x0 u.val h (by omega) hv]
    exact concatenate_pair_apply_right 1 xs x0 _ (ix3 (0 : Fin 1) u h) rfl rfl (ix3 (0 : Fin 1) ⟨u.val - 3, hv⟩ h)
      (fun b => match b with
        | ⟨0, _⟩ => fun _ => rfl
        | ⟨1, _⟩ => fun hne => absurd rfl hne
        | ⟨2, _⟩ => fun _ => rfl)
      (by show u.val - 3 + 3 = u.val; omega)

/-- The 512 rows of a 515-row value from row `i` on, at row `r`: the value's row `r + i`. -/
theorem rows_from_apply (v : FVec Ideal S1x515x2048 .f32) (i : ℕ) (hi : i ≤ 3)
    (hs : S1x515x2048.Slices ![0, i, 0] S1x512x2048) (r : Fin 512) (h : Fin 2048) :
    extractStridedSlice S1x512x2048 ![0, i, 0] v hs (ix3 (0 : Fin 1) r h)
      = v (ix3 (0 : Fin 1) ⟨r.val + i, by have := r.isLt; omega⟩ h) :=
  extractStridedSlice_apply ![0, i, 0] v hs (ix3 (0 : Fin 1) r h) (ix3 (0 : Fin 1) ⟨r.val + i, by have := r.isLt; omega⟩ h)
    (fun a => match a with
      | ⟨0, _⟩ => rfl
      | ⟨1, _⟩ => by show r.val + i = i + r.val; omega
      | ⟨2, _⟩ => by show h.val = 0 + h.val; omega)

/-- One tap row `[1, 2048]`, flattened, given two unit axes in front and repeated down the 512 rows, at `(0, r, h)`: its
    entry `h`. -/
theorem tap_row_apply (w : Vec Ideal S1x2048 .f32) (r : Fin 512) (h : Fin 2048) :
    broadcastTo S1x512x2048 (shapeCast S1x1x2048 (shapeCast S2048 w Facts₀.shapeCasts_S1x2048_S2048)
      Facts₀.shapeCasts_S2048_S1x1x2048) Facts₀.broadcasts_S1x1x2048_S1x512x2048 (ix3 (0 : Fin 1) r h)
      = w (ix2 (0 : Fin 1) h) := by
  refine (broadcastTo_apply _ _ (ix3 (0 : Fin 1) r h) (ix3 (0 : Fin 1) (0 : Fin 1) h)
    (fun a => match a with | ⟨0, _⟩ => rfl | ⟨1, _⟩ => rfl | ⟨2, _⟩ => rfl)).trans ?_
  refine (shapeCast_apply _ _ (ix3 (0 : Fin 1) (0 : Fin 1) h) (ix1 h) ?_).trans ?_
  · rw [Shape.rowMajor_val_one, Shape.rowMajor_val_three]
    show h.val = ((0 * 1 + 0) * 2048 + h.val); omega
  refine shapeCast_apply _ _ (ix1 h) (ix2 (0 : Fin 1) h) ?_
  rw [Shape.rowMajor_val_one, Shape.rowMajor_val_two]
  show 0 * 2048 + h.val = h.val; omega

/-- THE OUTPUT ROW. The body's product-and-sum chain followed by `silu`, at entry `(0, r, h)` of the block: the window's rows
    `r … r + 3` against the four tap rows, added first to last onto zero. -/
theorem pay3_apply (x0 : Vec Ideal S1x512x2048 .f32) (xs : Vec Ideal S1x3x2048 .f32)
    (w0 w1 w2 w3 : Vec Ideal S1x2048 .f32) (r : Fin 512) (h : Fin 2048) :
    k0_pay3 (F := Ideal) x0 xs w0 w1 w2 w3 (ix3 (0 : Fin 1) r h)
      = silu (0 + window xs x0 r.val h * w0 (ix2 (0 : Fin 1) h) + window xs x0 (r.val + 1) h * w1 (ix2 (0 : Fin 1) h)
          + window xs x0 (r.val + 2) h * w2 (ix2 (0 : Fin 1) h) + window xs x0 (r.val + 3) h * w3 (ix2 (0 : Fin 1) h)) := by
  unfold k0_pay3 silu
  simp only [mulf_apply, addf_apply, broadcast_apply, logistic, Ideal.logistic_def,
    rows_from_apply _ 0 (by omega), rows_from_apply _ 1 (by omega), rows_from_apply _ 2 (by omega),
    rows_from_apply _ 3 (by omega), Ideal.ofBits_def, Ideal.ofBits_zero_f32, Nat.add_zero]
  rw [tap_row_apply w0 r h, tap_row_apply w1 r h, tap_row_apply w2 r h, tap_row_apply w3 r h,
    concat_apply xs x0 ⟨r.val, by have := r.isLt; omega⟩ h,
    concat_apply xs x0 ⟨r.val + 1, by have := r.isLt; omega⟩ h,
    concat_apply xs x0 ⟨r.val + 2, by have := r.isLt; omega⟩ h,
    concat_apply xs x0 ⟨r.val + 3, by have := r.isLt; omega⟩ h]

/-- THE CARRIED ROWS LEFT BEHIND are the block's last three: row `u` of them is the block's row `509 + u`. -/
theorem pay1_apply (x0 : Vec Ideal S1x512x2048 .f32) (u : Fin 3) (h : Fin 2048) :
    k0_pay1 (F := Ideal) x0 (ix3 (0 : Fin 1) u h) = x0 (ix3 (0 : Fin 1) ⟨509 + u.val, by have := u.isLt; omega⟩ h) := by
  unfold k0_pay1
  rw [shapeCast_self]
  exact extractStridedSlice_apply ![0, 509, 0] x0 _ (ix3 (0 : Fin 1) u h) (ix3 (0 : Fin 1) ⟨509 + u.val, by have := u.isLt; omega⟩ h)
    (fun a => match a with
      | ⟨0, _⟩ => rfl
      | ⟨1, _⟩ => rfl
      | ⟨2, _⟩ => by show h.val = 0 + h.val; omega)

/-- THE RESET ROWS are zero. -/
theorem pay2_apply (u : Fin 3) (h : Fin 2048) : k0_pay2 (F := Ideal) (ix3 (0 : Fin 1) u h) = 0 := by
  unfold k0_pay2
  rw [shapeCast_self]
  show Ideal.ofBits .f32 0x00000000#32 = 0
  exact Ideal.ofBits_zero_f32

end Cert.KernelIdeal.Body

end
-- ==== Proof.ConvPieces.lean ====
/-
  What one run of the body leaves behind, as values of the blocks it was given.

  At the first block of a sequence the body first resets the carried rows to zero, so its output is the output-row function
  of the block over ZERO carried rows; at every other block it is that function of the block over the carried rows the
  block before left. In both cases the carried rows it leaves are the block's last three rows. Row `i` of the taps is
  read from the `[4, 2048]` tap block through the one-row rectangle at row `i`.
-/
import proofs.«143942_j31215822307431_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem zero3 : (![0, 0, 0] : Fin 3 → Nat) = fun _ => 0 := funext fun a => by fin_cases a <;> rfl

/-- Row `i` of the tap block, as the body loads it: the `[1, 2048]` rectangle at row offset `i`. -/
abbrev tapRow0 (x1 : Vec F S4x2048 .f32) : Vec F S1x2048 .f32 :=
  View.ld x1 (Rect.unit (s := S4x2048) ![0, 0] S1x2048.size Facts₀.inb_S4x2048_S1x2048_0_0)
abbrev tapRow1 (x1 : Vec F S4x2048 .f32) : Vec F S1x2048 .f32 :=
  View.ld x1 (Rect.unit (s := S4x2048) ![1, 0] S1x2048.size Facts₀.inb_S4x2048_S1x2048_1_0)
abbrev tapRow2 (x1 : Vec F S4x2048 .f32) : Vec F S1x2048 .f32 :=
  View.ld x1 (Rect.unit (s := S4x2048) ![2, 0] S1x2048.size Facts₀.inb_S4x2048_S1x2048_2_0)
abbrev tapRow3 (x1 : Vec F S4x2048 .f32) : Vec F S1x2048 .f32 :=
  View.ld x1 (Rect.unit (s := S4x2048) ![3, 0] S1x2048.size Facts₀.inb_S4x2048_S1x2048_3_0)

/-- NOT the first block of a sequence: the output block is the output-row function of the block, the carried rows the
    block before left, and the four tap rows. -/
theorem out_later (c : Dev nD) (i : grid0.Coords) (arg2 : Memref sig .tc .vmem S1x512x2048 .f32) (harg2 : arg2.IsWhole)
    (arg3 : Memref sig .tc .vmem S4x2048 .f32) (harg3 : arg3.IsWhole) (arg4 : Memref sig .tc .vmem S1x512x2048 .f32)
    (harg4 : arg4.IsWhole) (arg5 : Memref sig .tc .vmem S1x3x2048 .f32) (harg5 : arg5.IsWhole) (hc0 : ¬cond0_0 i)
    (x0 : Vec F S1x512x2048 .f32) (x1 : Vec F S4x2048 .f32) (xs0 : Vec F S1x3x2048 .f32) :
    out0_B_2 c i arg2 harg2 arg3 harg3 arg4 harg4 arg5 harg5 hc0 x0 x1 xs0
      = k0_pay3 x0 xs0 (tapRow0 x1) (tapRow1 x1) (tapRow2 x1) (tapRow3 x1) := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero (S := S1x512x2048) zero3]
  simp only [View.readAt_eq_ld, harg2.read_unread, harg3.read_unread, harg5.read_unread,
    View.ld_unit_zero (S := S1x512x2048) zero3, View.ld_unit_zero (S := S1x3x2048) zero3]

/-- … and it leaves the block's last three rows as the carried rows. -/
theorem carry_later (c : Dev nD) (i : grid0.Coords) (arg2 : Memref sig .tc .vmem S1x512x2048 .f32) (harg2 : arg2.IsWhole)
    (arg3 : Memref sig .tc .vmem S4x2048 .f32) (harg3 : arg3.IsWhole) (arg4 : Memref sig .tc .vmem S1x512x2048 .f32)
    (harg4 : arg4.IsWhole) (arg5 : Memref sig .tc .vmem S1x3x2048 .f32) (harg5 : arg5.IsWhole) (hc0 : ¬cond0_0 i)
    (x0 : Vec F S1x512x2048 .f32) (x1 : Vec F S4x2048 .f32) (xs0 : Vec F S1x3x2048 .f32) :
    sout0_B_0 c i arg2 harg2 arg3 harg3 arg4 harg4 arg5 harg5 hc0 x0 x1 xs0 = k0_pay1 x0 := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  rw [View.canon_unit_zero (S := S1x3x2048) zero3]
  simp only [View.readAt_eq_ld, harg2.read_unread, View.ld_unit_zero (S := S1x512x2048) zero3]

/-- The FIRST block of a sequence: the carried rows are reset before they are read, so the output block is the
    output-row function of the block over the reset rows. -/
theorem out_first (c : Dev nD) (i : grid0.Coords) (arg2 : Memref sig .tc .vmem S1x512x2048 .f32) (harg2 : arg2.IsWhole)
    (arg3 : Memref sig .tc .vmem S4x2048 .f32) (harg3 : arg3.IsWhole) (arg4 : Memref sig .tc .vmem S1x512x2048 .f32)
    (harg4 : arg4.IsWhole) (arg5 : Memref sig .tc .vmem S1x3x2048 .f32) (harg5 : arg5.IsWhole) (hc0 : cond0_0 i)
    (x0 : Vec F S1x512x2048 .f32) (x1 : Vec F S4x2048 .f32) :
    out0_A_2 c i arg2 harg2 arg3 harg3 arg4 harg4 arg5 harg5 hc0 x0 x1
      = k0_pay3 x0 (k0_pay2 (F := F)) (tapRow0 x1) (tapRow1 x1) (tapRow2 x1) (tapRow3 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero (S := S1x512x2048) zero3, View.readCov_unit_zero (S := S1x3x2048) _ zero3]
  simp only [View.readAt_eq_ld, harg2.read_unread, harg3.read_unread,
    View.ld_unit_zero (S := S1x512x2048) zero3]

/-- … and it too leaves the block's last three rows as the carried rows (the later of its two stores). -/
theorem carry_first (c : Dev nD) (i : grid0.Coords) (arg2 : Memref sig .tc .vmem S1x512x2048 .f32) (harg2 : arg2.IsWhole)
    (arg3 : Memref sig .tc .vmem S4x2048 .f32) (harg3 : arg3.IsWhole) (arg4 : Memref sig .tc .vmem S1x512x2048 .f32)
    (harg4 : arg4.IsWhole) (arg5 : Memref sig .tc .vmem S1x3x2048 .f32) (harg5 : arg5.IsWhole) (hc0 : cond0_0 i)
    (x0 : Vec F S1x512x2048 .f32) (x1 : Vec F S4x2048 .f32) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_cons_unit_zero (S := S1x3x2048) zero3]
  simp only [View.readAt_eq_ld, harg2.read_unread, View.ld_unit_zero (S := S1x512x2048) zero3]

/-- Row `i` of the tap block read at lane `h` is the block's entry `(i, h)`. -/
theorem tapRow0_apply (x1 : Vec F S4x2048 .f32) (h : Fin 2048) :
    tapRow0 x1 (ValueIdx.ix2 (0 : Fin 1) h) = x1 (ValueIdx.ix2 (0 : Fin 4) h) :=
  congrArg x1 (funext fun a => Fin.ext (match a with
    | ⟨0, _⟩ => by show 0 + 1 * 0 = 0; omega
    | ⟨1, _⟩ => by show 0 + 1 * h.val = h.val; omega))
theorem tapRow1_apply (x1 : Vec F S4x2048 .f32) (h : Fin 2048) :
    tapRow1 x1 (ValueIdx.ix2 (0 : Fin 1) h) = x1 (ValueIdx.ix2 (1 : Fin 4) h) :=
  congrArg x1 (funext fun a => Fin.ext (match a with
    | ⟨0, _⟩ => by show 1 + 1 * 0 = 1; omega
    | ⟨1, _⟩ => by show 0 + 1 * h.val = h.val; omega))
theorem tapRow2_apply (x1 : Vec F S4x2048 .f32) (h : Fin 2048) :
    tapRow2 x1 (ValueIdx.ix2 (0 : Fin 1) h) = x1 (ValueIdx.ix2 (2 : Fin 4) h) :=
  congrArg x1 (funext fun a => Fin.ext (match a with
    | ⟨0, _⟩ => by show 2 + 1 * 0 = 2; omega
    | ⟨1, _⟩ => by show 0 + 1 * h.val = h.val; omega))
theorem tapRow3_apply (x1 : Vec F S4x2048 .f32) (h : Fin 2048) :
    tapRow3 x1 (ValueIdx.ix2 (0 : Fin 1) h) = x1 (ValueIdx.ix2 (3 : Fin 4) h) :=
  congrArg x1 (funext fun a => Fin.ext (match a with
    | ⟨0, _⟩ => by show 3 + 1 * 0 = 3; omega
    | ⟨1, _⟩ => by show 0 + 1 * h.val = h.val; omega))

end Cert.KernelIdeal.Pieces

end
-- ==== Proof.ConvBlocks.lean ====
/-
  From blocks to the array: the kernel's result array is the convolution-then-SiLU of its two argument arrays.

  The grid walks the 4 sequences, and inside each its 16 blocks of 512 rows, in order: point `t` is block `t % 16` of sequence
  `t / 16`. Its input block is rows `512·(t % 16) …` of that sequence, and the rows it is handed from the point before are
  that block's last three — the three rows just above its own first row — or zero at the first block of a sequence, where
  the padded sequence has its three zero rows. So the window's row `u` at point `t` is the padded sequence's row
  `512·(t % 16) + u`, and output row `r` of the block is the result's row `512·(t % 16) + r`. The blocks tile the array.
-/
import proofs.«143942_j31215822307431_1_alg».proof.Proof.Gen.KernelIdeal.Value
import proofs.«143942_j31215822307431_1_alg».proof.Proof.ConvBody
import proofs.«143942_j31215822307431_1_alg».proof.Proof.ConvPieces
import Idealize.ShloMosaic.Lib.StableHlo.Run

set_option maxRecDepth 16384

noncomputable section

namespace Cert.KernelIdeal.ConvValue

open Cert.KernelIdeal Cert.KernelIdeal.Gen Idealize.ShloMosaic Idealize.ShloMosaic.TcCoe Idealize.SL.Sem
open Idealize.ShloMosaic.ValueIdx Cert.ConvSpec
open Idealize.ShloMosaic.Pipeline (Dat)

variable (m : (ℓ : Loc nD τ sig) → Buf (Elt Ideal) ℓ) (ρ : Dev nD → PrngReg)

/-- The two argument arrays as launched. -/
abbrev seqs (c : Dev nD) : SX.Idx → EReal := m ((c : Thread nD τ).loc main_arg0)
abbrev taps (c : Dev nD) : SW.Idx → EReal := m ((c : Thread nD τ).loc main_arg1)

theorem ix3_congr {n0 n1 n2 : Nat} {a a' : Fin n0} {b b' : Fin n1} (d : Fin n2) (ha : a.val = a'.val) (hb : b.val = b'.val) :
    ix3 a b d = ix3 a' b' d := by
  rw [Fin.ext ha, Fin.ext hb]

/-- The printed index maps over the 64 grid points: the sequence block and the result block of point `t` are block
    `(t / 16, t % 16, 0)`; the tap block is always block `(0, 0)`. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 3) = t.val / 16 ∧ win0_2.index t (1 : Fin 3) = t.val % 16 ∧ win0_2.index t (2 : Fin 3) = 0 :=
  (by decide +kernel : ∀ t : Fin grid0.N, _)

theorem lt_N (t : Fin cfg0.N) : t.val < 64 := lt_of_lt_of_eq t.isLt (show cfg0.N = 64 from N_0)

/-- The sequence block at point `t`, at `(0, r, h)`: row `512·(t % 16) + r` of sequence `t / 16`. -/
theorem seq_block_apply (c : Dev nD) (t : Fin cfg0.N) (r : Fin 512) (h : Fin 2048) :
    (iblk m c 0 t : Vec Ideal S1x512x2048 .f32) (ix3 (0 : Fin 1) r h)
      = seqs m c (ix3 (⟨t.val / 16, by have := lt_N t; omega⟩ : Fin 4)
          (⟨512 * (t.val % 16) + r.val, by have := lt_N t; have := r.isLt; omega⟩ : Fin 8192) h) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 2048 + 1 * h.val = h.val; omega

/-- The tap array the region finds is the transposed second argument. -/
theorem taps_entry (c : Dev nD) :
    (V m c main_v0 : S4x2048.Idx → EReal)
      = transpose S4x2048 [1, 0] (m ((c : Thread nD τ).loc main_arg1)) Facts₀.transposes_S2048x4_S4x2048_1_0 := by
  dsimp only [Gen.V, Gen.hostOps0]; after_results

/-- The tap block at any point, at `(i, h)`: the second argument's entry `(h, i)`. -/
theorem tap_block_apply (c : Dev nD) (t : Fin cfg0.N) (i : Fin 4) (h : Fin 2048) :
    (iblk m c 1 t : Vec Ideal S4x2048 .f32) (ix2 i h) = taps m c (ix2 h i) := by
  obtain ⟨-, -, -, e3, e4, -⟩ := idx_facts t
  unfold iblk
  rw [View.read_apply]
  show V m c main_v0 _ = _
  rw [taps_entry]
  refine transpose_apply [1, 0] _ _ _ (ix2 h i) fun b => ?_
  match b with
  | ⟨0, _⟩ => show i.val = win0_1.index t (0 : Fin 2) * 4 + 1 * i.val; omega
  | ⟨1, _⟩ => show h.val = win0_1.index t (1 : Fin 2) * 2048 + 1 * h.val; omega

/-- What every point leaves as carried rows: its own sequence block's last three rows. -/
theorem carried (c : Dev nD) (t : Fin cfg0.N) :
    (outsAt0 m c t.val t.isLt).2 = k0_pay1 (iblk m c 0 t) := by
  by_cases h0 : t.val % 16 = 0
  · rw [outsAt0_A m c t h0]
    dsimp only
    exact Pieces.carry_first c (grid0.coords t) (ms0_0 t) (hs0_0 t) (ms0_1 t) (hs0_1 t) (ms0_2 t) (hs0_2 t) scM0_0
      (Memref.isWhole_whole _) ((hcond0_0 t).mpr h0) (iblk m c 0 t) (iblk m c 1 t)
  · rw [outsAt0_B m c t h0]
    dsimp only
    exact Pieces.carry_later c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2

/-- THE WINDOW IS THE PADDED SEQUENCE. If the carried rows at point `t` are the padded sequence's rows
    `512·(t % 16) + 0, 1, 2`, then the window's row `u` is its row `512·(t % 16) + u`. -/
theorem window_eq_tap (c : Dev nD) (t : Fin cfg0.N) (xs : Vec Ideal S1x3x2048 .f32) (h : Fin 2048)
    (hxs : ∀ u : Fin 3, xs (ix3 (0 : Fin 1) u h)
      = tap (seqs m c) ⟨t.val / 16, by have := lt_N t; omega⟩ (512 * (t.val % 16) + u.val) h)
    (u v : ℕ) (hu : u < 515) (hv : v = 512 * (t.val % 16) + u) :
    Body.window xs (iblk m c 0 t) u h = tap (seqs m c) ⟨t.val / 16, by have := lt_N t; omega⟩ v h := by
  subst hv
  have hN := lt_N t
  by_cases h3 : u < 3
  · rw [Body.window_of_lt _ _ _ _ h3]; exact hxs ⟨u, h3⟩
  · rw [Body.window_of_ge _ _ _ _ (by omega) (by omega), seq_block_apply, tap_of_ge _ _ _ _ (by omega) (by omega)]
    exact congrArg _ (ix3_congr h rfl (by show 512 * (t.val % 16) + (u - 3) = 512 * (t.val % 16) + u - 3; omega))

/-- The carried rows at the first block of a sequence, reset to zero, are the padded sequence's three zero rows. -/
theorem reset_rows (c : Dev nD) (t : Fin cfg0.N) (h0 : t.val % 16 = 0) (h : Fin 2048) (u : Fin 3) :
    k0_pay2 (F := Ideal) (ix3 (0 : Fin 1) u h)
      = tap (seqs m c) ⟨t.val / 16, by have := lt_N t; omega⟩ (512 * (t.val % 16) + u.val) h := by
  rw [Body.pay2_apply, tap_of_lt _ _ _ _ (by have := u.isLt; omega)]

/-- The carried rows at a later block, left by the point before, are the three rows above the block. -/
theorem carried_rows (c : Dev nD) (t : Fin cfg0.N) (h0 : ¬t.val % 16 = 0) (h : Fin 2048) (u : Fin 3) :
    (outsAt0 m c (t.val - 1) (Nat.lt_of_le_of_lt (Nat.sub_le _ _) t.isLt)).2 (ix3 (0 : Fin 1) u h)
      = tap (seqs m c) ⟨t.val / 16, by have := lt_N t; omega⟩ (512 * (t.val % 16) + u.val) h := by
  have hN := lt_N t
  have hu := u.isLt
  rw [carried m c ⟨t.val - 1, Nat.lt_of_le_of_lt (Nat.sub_le _ _) t.isLt⟩, Body.pay1_apply, seq_block_apply,
    tap_of_ge _ _ _ _ (by omega) (by omega)]
  exact congrArg _ (ix3_congr h (by show (t.val - 1) / 16 = t.val / 16; omega)
    (by show 512 * ((t.val - 1) % 16) + (509 + u.val) = 512 * (t.val % 16) + u.val - 3; omega))

/-- The output-row function over a window that is the padded sequence, with the tap block's rows, is the result. -/
theorem row_eq_result (c : Dev nD) (t : Fin cfg0.N) (xs : Vec Ideal S1x3x2048 .f32) (r : Fin 512) (h : Fin 2048)
    (hxs : ∀ u : Fin 3, xs (ix3 (0 : Fin 1) u h)
      = tap (seqs m c) ⟨t.val / 16, by have := lt_N t; omega⟩ (512 * (t.val % 16) + u.val) h) :
    k0_pay3 (F := Ideal) (iblk m c 0 t) xs (Pieces.tapRow0 (iblk m c 1 t)) (Pieces.tapRow1 (iblk m c 1 t))
        (Pieces.tapRow2 (iblk m c 1 t)) (Pieces.tapRow3 (iblk m c 1 t)) (ix3 (0 : Fin 1) r h)
      = result (seqs m c) (taps m c) (ix3 (⟨t.val / 16, by have := lt_N t; omega⟩ : Fin 4)
          (⟨512 * (t.val % 16) + r.val, by have := lt_N t; have := r.isLt; omega⟩ : Fin 8192) h) := by
  have hr := r.isLt
  rw [Body.pay3_apply, result_apply, Pieces.tapRow0_apply, Pieces.tapRow1_apply, Pieces.tapRow2_apply,
    Pieces.tapRow3_apply, tap_block_apply, tap_block_apply, tap_block_apply, tap_block_apply,
    window_eq_tap m c t xs h hxs r.val _ (by omega) rfl,
    window_eq_tap m c t xs h hxs (r.val + 1) (512 * (t.val % 16) + r.val + 1) (by omega) (by omega),
    window_eq_tap m c t xs h hxs (r.val + 2) (512 * (t.val % 16) + r.val + 2) (by omega) (by omega),
    window_eq_tap m c t xs h hxs (r.val + 3) (512 * (t.val % 16) + r.val + 3) (by omega) (by omega),
    zero_add]
  rfl

/-- WHAT POINT `t` LEAVES IN THE RESULT'S STAGING BUFFER is its block of the result. -/
theorem out_apply (c : Dev nD) (t : Fin cfg0.N) (j : S1x512x2048.Idx) :
    (outsAt0 m c t.val t.isLt).1 j
      = result (seqs m c) (taps m c) (ix3 (⟨t.val / 16, by have := lt_N t; omega⟩ : Fin 4)
          (⟨512 * (t.val % 16) + (j 1).val, by have := lt_N t; have h1 : (j 1).val < 512 := (j 1).isLt; omega⟩ : Fin 8192) (j 2)) := by
  obtain ⟨q, r, h, rfl⟩ : ∃ (q : Fin 1) (r : Fin 512) (h : Fin 2048), j = ix3 q r h := ⟨j 0, j 1, j 2, eq_ix3 j⟩
  obtain rfl : q = 0 := Subsingleton.elim _ _
  by_cases h0 : t.val % 16 = 0
  · rw [outsAt0_A m c t h0]
    dsimp only
    rw [Pieces.out_first c (grid0.coords t) (ms0_0 t) (hs0_0 t) (ms0_1 t) (hs0_1 t) (ms0_2 t) (hs0_2 t) scM0_0
      (Memref.isWhole_whole _) ((hcond0_0 t).mpr h0) (iblk m c 0 t) (iblk m c 1 t)]
    exact row_eq_result m c t _ r h (reset_rows m c t h0 h)
  · rw [outsAt0_B m c t h0]
    dsimp only
    rw [Pieces.out_later c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2]
    exact row_eq_result m c t _ r h (carried_rows m c t h0 h)

/-- WHAT POINT `t` WRITES BACK is block `t` of the result. -/
theorem flushed_eq (c : Dev nD) (t : Fin cfg0.N) :
    (dats m 0 c).flushed 2 t = ((cfg0.win 2).blk t).view.read (Elt Ideal) (result (seqs m c) (taps m c)) := by
  rw [Value.flushed2]
  obtain ⟨-, -, -, -, -, e5, e6, e7⟩ := idx_facts t
  have hN := lt_N t
  funext j
  show (outsAt0 m c t.val t.isLt).1 j = result (seqs m c) (taps m c) (((cfg0.win 2).blk t).view.emb j)
  rw [out_apply m c t j]
  refine congrArg _ (funext fun a => Fin.ext ?_)
  have hj0 : (j 0).val < 1 := (j 0).isLt
  match a with
  | ⟨0, _⟩ => show t.val / 16 = win0_2.index t (0 : Fin 3) * 1 + 1 * (j 0).val; omega
  | ⟨1, _⟩ => show 512 * (t.val % 16) + (j 1).val = win0_2.index t (1 : Fin 3) * 512 + 1 * (j 1).val; omega
  | ⟨2, _⟩ => show (j 2).val = win0_2.index t (2 : Fin 3) * 2048 + 1 * (j 2).val; omega

/-- An index of the array is in point `t`'s block iff each coordinate is in the block's range on its axis. -/
theorem mem_blk (t : Fin cfg0.N) (i : S4x8192x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v1).slice (win0_2.rect t)).set ↔ _
  rw [View.set_slice_whole, Rect.mem_set_unit]
  exact Iff.rfl

/-- Every index of the array is in some point's block: row `u` of sequence `b` is in block `u / 512` of that sequence. -/
theorem covered (i : S4x8192x2048.Idx) :
    ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 2048 := (i 2).isLt
  have hN : cfg0.N = 64 := N_0
  have ht : 16 * (i 0).val + (i 1).val / 512 < cfg0.N := by omega
  refine ⟨⟨16 * (i 0).val + (i 1).val / 512, ht⟩, flush0_2 _, ?_⟩
  rw [mem_blk]
  obtain ⟨-, -, -, -, -, e5, e6, e7⟩ := idx_facts ⟨16 * (i 0).val + (i 1).val / 512, ht⟩
  have tv : (⟨16 * (i 0).val + (i 1).val / 512, ht⟩ : Fin cfg0.N).val = 16 * (i 0).val + (i 1).val / 512 := rfl
  rw [tv] at e5 e6
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 512 ≤ (i 1).val ∧ (i 1).val < win0_2.index _ (1 : Fin 3) * 512 + 512
    omega
  | ⟨2, _⟩ =>
    show win0_2.index _ (2 : Fin 3) * 2048 ≤ (i 2).val ∧ (i 2).val < win0_2.index _ (2 : Fin 3) * 2048 + 2048
    omega

/-- THE RESULT ARRAY after the run is the convolution-then-SiLU of the argument arrays. -/
theorem final (c : Dev nD) : (dats m 0 c).arrAt 2 cfg0.N = result (seqs m c) (taps m c) :=
  (dats m 0 c).arrAt_eq_of_cover 2 (result (seqs m c) (taps m c)) (fun t _ => flushed_eq m c t) covered

/-- The run, read: the result array at that function of the arguments, the arguments unchanged. -/
theorem run : θ_run defs (onTc (τ := τ) (main (F := Ideal))) ⟨m, fun _ => 0, ρ⟩ fun r => ∀ c : Dev nD,
      r.2.mem ((c : Thread nD τ).loc main_v1) = result (seqs m c) (taps m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ConvValue

end
-- ==== Proof.ConvRef.lean ====
/-
  The reference, read at one entry, is the same function of the two argument arrays.

  The reference pads every sequence with three zero rows in front, takes the four shifted copies of the padded array (rows
  `t + i` for `i = 0, 1, 2, 3`), multiplies copy `i` by column `i` of the taps repeated over sequences and rows, adds the
  four products first to last, and applies `y · 1 / (1 + e^(−y))`. Over the extended reals that last expression is the
  logistic function by definition, so nothing is rearranged: the padded array at `(b, u, h)` is `tap x b u h`, and the rest
  is the convolution's text.
-/
import proofs.«143942_j31215822307431_1_alg».proof.Proof.Gen.ReferenceIdeal.Read
import proofs.«143942_j31215822307431_1_alg».proof.Proof.ConvSpec
import Idealize.ShloMosaic.Lib.KernelVsHost
import Idealize.ShloMosaic.Lib.ValueIdx
import Idealize.ShloMosaic.PureOps.Ideal.Laws

noncomputable section

namespace Cert.ReferenceIdeal.ConvRef

open Cert.ReferenceIdeal Cert.ReferenceIdeal.Gen Cert.ReferenceIdeal.Read Idealize.ShloMosaic Idealize.ShloMosaic.ValueIdx
open Cert.ConvSpec

/-- The word of `1.0` is the real one. -/
theorem one_f32 : Ideal.ofBits .f32 0x3F800000#32 = 1 := by simp [Ideal.ofBits, Ideal.ieee, -EReal.coe_mul]; norm_num

/-- The padding value, the integer zero converted, is the real zero. -/
theorem pad_value (i : S_.Idx) : val_main_call0_v0 (F := Ideal) i = 0 := by
  show (((0#32 : BitVec 32).toInt : ℝ) : EReal) = 0
  simp

/-- THE PADDED ARRAY at `(b, u, h)`: zero in the three rows put in front, row `u − 3` of the sequence after them. -/
theorem padded_apply (x0 : SX.Idx → EReal) (b : Fin 4) (u : Fin 8195) (h : Fin 2048) :
    val_main_v0 (F := Ideal) x0 (ix3 b u h) = tap x0 b u.val h := by
  have hu := u.isLt
  unfold val_main_v0
  by_cases h3 : 3 ≤ u.val
  · rw [tap_of_ge x0 b u.val h h3 hu]
    exact pad_apply_of_inside ![0, 3, 0] ![0, 0, 0] ![0, 0, 0] x0 _ _ _ (ix3 b u h) (ix3 b ⟨u.val - 3, by omega⟩ h)
      (fun a => match a with
        | ⟨0, _⟩ => by show b.val = 0 + b.val * (0 + 1); omega
        | ⟨1, _⟩ => by show u.val = 3 + (u.val - 3) * (0 + 1); omega
        | ⟨2, _⟩ => by show h.val = 0 + h.val * (0 + 1); omega)
  · rw [tap_of_lt x0 b u.val h (by omega)]
    refine (pad_apply_of_not_inside ![0, 3, 0] ![0, 0, 0] ![0, 0, 0] x0 _ _ _ (ix3 b u h) (1 : Fin 3) ?_).trans (pad_value _)
    intro hh
    exact h3 hh.1

/-- The copy of the padded array shifted by `i` rows, at `(b, t, h)`: the padded row `t + i`. -/
theorem shifted_apply (x0 : SX.Idx → EReal) (i : ℕ) (hi : i ≤ 3) (hs : S4x8195x2048.Slices ![0, i, 0] S4x8192x2048)
    (b : Fin 4) (t : Fin 8192) (h : Fin 2048) :
    extractStridedSlice S4x8192x2048 ![0, i, 0] (val_main_v0 (F := Ideal) x0) hs (ix3 b t h) = tap x0 b (t.val + i) h := by
  have ht := t.isLt
  refine (extractStridedSlice_apply ![0, i, 0] _ hs (ix3 b t h) (ix3 b (⟨t.val + i, by omega⟩ : Fin 8195) h)
    (fun a => match a with
      | ⟨0, _⟩ => by show b.val = 0 + b.val; omega
      | ⟨1, _⟩ => by show t.val + i = i + t.val; omega
      | ⟨2, _⟩ => by show h.val = 0 + h.val; omega)).trans ?_
  exact padded_apply x0 b ⟨t.val + i, by omega⟩ h

/-- Column `i` of the taps, flattened, given two unit axes and repeated over sequences and rows, at `(b, t, h)`: the
    taps' entry `(h, i)`. The four columns: -/
theorem column0_apply (x1 : SW.Idx → EReal) (b : Fin 4) (t : Fin 8192) (h : Fin 2048) :
    val_main_v5 (F := Ideal) x1 (ix3 b t h) = x1 (ix2 h 0) := by
  rw [val_main_v5_apply, val_main_v4_apply, val_main_v3_apply, val_main_v2_apply]
  exact congrArg x1 (funext fun a => Fin.ext (match a with
    | ⟨0, _⟩ => by show h.val / 1 = h.val; omega
    | ⟨1, _⟩ => rfl))
theorem column1_apply (x1 : SW.Idx → EReal) (b : Fin 4) (t : Fin 8192) (h : Fin 2048) :
    val_main_v11 (F := Ideal) x1 (ix3 b t h) = x1 (ix2 h 1) := by
  rw [val_main_v11_apply, val_main_v10_apply, val_main_v9_apply, val_main_v8_apply]
  exact congrArg x1 (funext fun a => Fin.ext (match a with
    | ⟨0, _⟩ => by show h.val / 1 = h.val; omega
    | ⟨1, _⟩ => rfl))
theorem column2_apply (x1 : SW.Idx → EReal) (b : Fin 4) (t : Fin 8192) (h : Fin 2048) :
    val_main_v18 (F := Ideal) x1 (ix3 b t h) = x1 (ix2 h 2) := by
  rw [val_main_v18_apply, val_main_v17_apply, val_main_v16_apply, val_main_v15_apply]
  exact congrArg x1 (funext fun a => Fin.ext (match a with
    | ⟨0, _⟩ => by show h.val / 1 = h.val; omega
    | ⟨1, _⟩ => rfl))
theorem column3_apply (x1 : SW.Idx → EReal) (b : Fin 4) (t : Fin 8192) (h : Fin 2048) :
    val_main_v25 (F := Ideal) x1 (ix3 b t h) = x1 (ix2 h 3) := by
  rw [val_main_v25_apply, val_main_v24_apply, val_main_v23_apply, val_main_v22_apply]
  exact congrArg x1 (funext fun a => Fin.ext (match a with
    | ⟨0, _⟩ => by show h.val / 1 = h.val; omega
    | ⟨1, _⟩ => rfl))

/-- THE REFERENCE'S RESULT is the convolution-then-SiLU of its two arguments. -/
theorem reference_eq (x0 : SX.Idx → EReal) (x1 : SW.Idx → EReal) : val_main_v28 (F := Ideal) x0 x1 = result x0 x1 := by
  funext j
  obtain ⟨b, t, h, rfl⟩ : ∃ (b : Fin 4) (t : Fin 8192) (h : Fin 2048), j = ix3 b t h := ⟨j 0, j 1, j 2, eq_ix3 j⟩
  have p0 : val_main_v1 (F := Ideal) x0 (ix3 b t h) = tap x0 b (t.val + 0) h := shifted_apply x0 0 (by omega) _ b t h
  have p1 : val_main_v7 (F := Ideal) x0 (ix3 b t h) = tap x0 b (t.val + 1) h := shifted_apply x0 1 (by omega) _ b t h
  have p2 : val_main_v14 (F := Ideal) x0 (ix3 b t h) = tap x0 b (t.val + 2) h := shifted_apply x0 2 (by omega) _ b t h
  have p3 : val_main_v21 (F := Ideal) x0 (ix3 b t h) = tap x0 b (t.val + 3) h := shifted_apply x0 3 (by omega) _ b t h
  rw [result_apply, val_main_v28_apply, val_main_call1_v5_apply, val_main_call1_v4_apply, val_main_call1_cst_0_apply,
    val_main_call1_v3_apply, val_main_call1_v2_apply, val_main_call1_cst_apply, val_main_call1_v1_apply,
    val_main_call1_v0_apply, val_main_v27_apply, val_main_v26_apply, val_main_v20_apply, val_main_v19_apply,
    val_main_v13_apply, val_main_v12_apply, val_main_v6_apply, p0, p1, p2, p3, column0_apply, column1_apply,
    column2_apply, column3_apply]
  simp only [Ideal.mulf_def, Ideal.addf_def, Ideal.hostDivf_def, Ideal.hostUnary_exp_def, Ideal.hostNegf_def,
    Ideal.negf_def, Ideal.ofBits_def, one_f32, Nat.add_zero]
  rfl

end Cert.ReferenceIdeal.ConvRef

end
-- ==== Proof.lean ====
/-
  A causal depthwise convolution with four taps along the sequence axis, followed by SiLU — computed block by block
  with three carried rows, against the same convolution written over the whole zero-padded array.

  Both programs take sequences `x[b, t, h]` (4 × 8192 × 2048) and taps `w[h, i]` (2048 × 4). With `xpad` the array `x`
  given three zero rows in front of every sequence, both end holding, at `(b, t, h)`,
      silu (xpad[b, t, h]·w[h, 0] + xpad[b, t+1, h]·w[h, 1] + xpad[b, t+2, h]·w[h, 2] + xpad[b, t+3, h]·w[h, 3]),
  `silu y = y · 1 / (1 + e^(−y))`, the products added first to last (`ConvSpec.result`).

  The kernel walks each sequence in 16 blocks of 512 rows. A block's output rows need the three rows above the block:
  those are carried from the block before in a scratch buffer (every block leaves its last three rows there), and reset to
  zero at the first block of a sequence — exactly the padded array's three zero rows. Its body adds the four products
  onto a zero, and `0 + a = a` on the extended reals; its logistic is, over the extended reals, the expression
  `1 / (1 + e^(−y))` the reference spells out. So the two results are the same term of the same entries of `x` and `w`: no
  law that needs finiteness is used, and the precondition is never opened.

  The modules: `ConvSpec` (the function), `ConvBody` (the body's arithmetic at one entry), `ConvPieces` (what one run of
  the body leaves, per case), `ConvBlocks` (blocks to the array: the kernel's run ends at `ConvSpec.result`), `ConvRef`
  (the reference's run ends at `ConvSpec.result`). Here: the three frames, the empty idealization ledger, and the two runs
  set side by side.
-/
import proofs.«143942_j31215822307431_1_alg».proof.Defs
import proofs.«143942_j31215822307431_1_alg».proof.Proof.Gen.Kernel
import proofs.«143942_j31215822307431_1_alg».proof.Proof.Gen.Kernel.Skeleton
import proofs.«143942_j31215822307431_1_alg».proof.Proof.Gen.Kernel.Launch
import proofs.«143942_j31215822307431_1_alg».proof.Proof.Gen.Kernel.Points
import proofs.«143942_j31215822307431_1_alg».proof.Proof.Gen.Kernel.Frame
import proofs.«143942_j31215822307431_1_alg».proof.Proof.Gen.KernelIdeal
import proofs.«143942_j31215822307431_1_alg».proof.Proof.Gen.KernelIdeal.Skeleton
import proofs.«143942_j31215822307431_1_alg».proof.Proof.Gen.KernelIdeal.Launch
import proofs.«143942_j31215822307431_1_alg».proof.Proof.Gen.KernelIdeal.Points
import proofs.«143942_j31215822307431_1_alg».proof.Proof.Gen.KernelIdeal.Frame
import proofs.«143942_j31215822307431_1_alg».proof.Proof.Gen.ReferenceIdeal
import proofs.«143942_j31215822307431_1_alg».proof.Proof.Gen.Pre_finite_inputs
import proofs.«143942_j31215822307431_1_alg».proof.Proof.Gen.KernelIdeal.Value
import proofs.«143942_j31215822307431_1_alg».proof.Proof.Gen.ReferenceIdeal.Run
import proofs.«143942_j31215822307431_1_alg».proof.Proof.Gen.ReferenceIdeal.Read
import proofs.«143942_j31215822307431_1_alg».proof.Proof.ConvBlocks
import proofs.«143942_j31215822307431_1_alg».proof.Proof.ConvRef
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of whole-array operations: it runs, and its arguments are never written. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Reading the kernel over the extended reals rewrote none of its operations. -/
theorem preserves : Cert.preserves_Kernel_KernelIdeal := trivial

/-- From memories that agree on `x` and `w`, both programs end with the result array at `ConvSpec.result x w`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ConvSpec.result (Cert.KernelIdeal.ConvValue.seqs m c) (Cert.KernelIdeal.ConvValue.taps m c),
    Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.ConvRef.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
